-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_arg18 : FVec F S1024 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  main_v93

def fn_part4 {F : FTy → Type} [FloatOps F] (main_arg14 : FVec F S1024 .f32) (main_arg15 : FVec F S1024x1024 .f32) (main_arg16 : FVec F S1024 .f32) (main_arg17 : FVec F S1024x1024 .f32) (main_arg18 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S4096 : Shape := ⟨1, ![4096]⟩
abbrev S1x4096 : Shape := ⟨2, ![1, 4096]⟩
abbrev S128x1024 : Shape := ⟨2, ![128, 1024]⟩
abbrev S128x4096 : Shape := ⟨2, ![128, 4096]⟩

abbrev nBuf : Space → Nat
  | .hbm => 29
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S4096x1024, .f32⟩
  | .hbm, ⟨20, _⟩ => ⟨S4096x1024, .bf16⟩
  | .hbm, ⟨21, _⟩ => ⟨S4096x1024, .f32⟩
  | .hbm, ⟨22, _⟩ => ⟨S4096x1024, .bf16⟩
  | .hbm, ⟨23, _⟩ => ⟨S4096, .f32⟩
  | .hbm, ⟨24, _⟩ => ⟨S4096, .f32⟩
  | .hbm, ⟨25, _⟩ => ⟨S4096, .f32⟩
  | .hbm, ⟨26, _⟩ => ⟨S1x4096, .f32⟩
  | .hbm, ⟨27, _⟩ => ⟨S4096x1024, .f32⟩
  | .hbm, ⟨28, _⟩ => ⟨S4096x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S4096x1024, .bf16⟩
  | .local _ .vmem, ⟨5, _⟩ => ⟨S4096x1024, .bf16⟩
  | .local _ .vmem, ⟨6, _⟩ => ⟨S1x4096, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8_0 : Ref sig .tc := ⟨.hbm, 27, rfl⟩
abbrev main_v8_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x1024_S1024x1024_S1024x1024_S1024x1024_S4096x1024_d0 : Shape.Concatenates [S1024x1024, S1024x1024, S1024x1024, S1024x1024] S4096x1024 0
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S128x1024_S128x1024_0_0 : ∀ a, (![0, 0] : Fin 2 → Nat) a + S128x1024.size a ≤ S128x1024.size a
  h_S128x1024 : 0 < S128x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  dot_S128x1024_S4096x1024_S128x4096_1_1_0_0_n_n_wf : DotDims.WF S128x1024 S4096x1024 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S4096x1024.size a
  hwx0_1 : ∀ i : grid0.Coords, EltTy.bits .f32 = 32 ∨ (Rect.block (s := S4096x1024) S128x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x1024.size a ≤ S4096x1024.size a
  hwx0_2 : ∀ i : grid0.Coords, EltTy.bits .bf16 = 32 ∨ (Rect.block (s := S4096x1024) S4096x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1024.size a ≤ S4096x1024.size a
  hwx0_5 : ∀ i : grid0.Coords, EltTy.bits .f32 = 32 ∨ (Rect.block (s := S4096x1024) S128x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S4096x1024.size a
  hwx0_6 : ∀ i : grid0.Coords, EltTy.bits .f32 = 32 ∨ (Rect.block (s := S4096x1024) S128x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S4096x1024.size a
  hwx0_7 : ∀ i : grid0.Coords, EltTy.bits .f32 = 32 ∨ (Rect.block (s := S4096x1024) S128x1024.size (cc0_transform_7 i) (hinb0_7 i)).WholeWords (EltTy.packing .f32)

variable [Facts₀]

def dot_S128x1024_S4096x1024_S128x4096_1_1_0_0_n_n : DotDims S128x1024 S4096x1024 S128x4096 where
  lhsContracting := [1]
  rhsContracting := [1]
  lhsNonContracting := [0]
  rhsNonContracting := [0]
  lhsBatch := []
  rhsBatch := []
  wf := dot_S128x1024_S4096x1024_S128x4096_1_1_0_0_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S128x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_0) S128x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_1) S128x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S4096 : Shape := ⟨1, ![4096]⟩
abbrev S1024x4096 : Shape := ⟨2, ![1024, 4096]⟩
abbrev S4096x4096 : Shape := ⟨2, ![4096, 4096]⟩
abbrev S1x4096 : Shape := ⟨2, ![1, 4096]⟩
abbrev S_ : Shape := ⟨0, ![]⟩

abbrev nBuf : Space → Nat
  | .hbm => 68
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S4096x1024, .f32⟩
  | .hbm, ⟨20, _⟩ => ⟨S4096x1024, .f32⟩
  | .hbm, ⟨21, _⟩ => ⟨S4096, .f32⟩
  | .hbm, ⟨22, _⟩ => ⟨S4096, .f32⟩
  | .hbm, ⟨23, _⟩ => ⟨S1024x4096, .f32⟩
  | .hbm, ⟨24, _⟩ => ⟨S4096x4096, .f32⟩
  | .hbm, ⟨25, _⟩ => ⟨S1024x4096, .f32⟩
  | .hbm, ⟨26, _⟩ => ⟨S4096x4096, .f32⟩
  | .hbm, ⟨27, _⟩ => ⟨S4096x4096, .f32⟩
  | .hbm, ⟨28, _⟩ => ⟨S1x4096, .f32⟩
  | .hbm, ⟨29, _⟩ => ⟨S4096x4096, .f32⟩
  | .hbm, ⟨30, _⟩ => ⟨S4096x4096, .f32⟩
  | .hbm, ⟨31, _⟩ => ⟨S1x4096, .f32⟩
  | .hbm, ⟨32, _⟩ => ⟨S4096x4096, .f32⟩
  | .hbm, ⟨33, _⟩ => ⟨S4096x4096, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst : Ref sig .tc := ⟨.hbm, 37, rfl⟩
abbrev main_v18 : Ref sig .tc := ⟨.hbm, 38, rfl⟩
abbrev main_v19 : Ref sig .tc := ⟨.hbm, 39, rfl⟩
abbrev main_cst_0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_1 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_3 : Ref sig .tc := ⟨.hbm, 57, rfl⟩
abbrev main_v34 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  transposes_S4096x1024_S1024x4096_1_0 : S4096x1024.Transposes [1, 0] S1024x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  bcast_S_S4096x1024 : S_.BroadcastsInDim S4096x1024 (![] : Fin 0 → Fin S4096x1024.rank)
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.KEntryBits.lean ====
/-
  The program up to its one kernel launch, at any float instance `F`.

  @main first runs eight host operations — the four gate matrices of each weight family stacked along their output
  axis and narrowed to bf16, the two bias families stacked, added and laid out as one row — and then launches the
  kernel over a grid of 32 points, one per block of 128 batch rows. None of the eight writes an argument array, so the
  kernel finds all nineteen arguments as launched; `V` names every buffer's contents at that moment. Window `w`'s
  block at grid point `t` is read off `V` (`iblk`); an input window's staging buffer holds exactly that block at
  every point (the three resident windows — both weight matrices and the bias row — are fetched once and their block
  index never moves). Last, the frame statement follows from any run that ends with the staged argument arrays at what
  the pipeline's bookkeeping computes and every other buffer as the launch found it.
-/
import proofs.«145393_j68848325755666_2_alg».proof.Proof.Gen.Kernel.Launch
import proofs.«145393_j68848325755666_2_alg».proof.Proof.Gen.Kernel.Skeleton
import proofs.«145393_j68848325755666_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main up to the launch -/

/-- Core `c`'s buffers when the kernel is launched: the launch memory after the eight host operations. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations followed by the launch, and the launch finds the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the launch writes argument array 0: the kernel finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument array 1: the kernel finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument array 2: the kernel finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument array 3: the kernel finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument array 4: the kernel finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument array 5: the kernel finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument array 6: the kernel finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument array 7: the kernel finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument array 8: the kernel finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument array 9: the kernel finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument array 10: the kernel finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument array 11: the kernel finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument array 12: the kernel finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument array 13: the kernel finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument array 14: the kernel finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument array 15: the kernel finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument array 16: the kernel finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument array 17: the kernel finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument array 18: the kernel finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds the window's block at every point, whether the point fetched it or
    the block index had not moved since the last fetch. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds the window's block at every point, whether the point fetched it or
    the block index had not moved since the last fetch. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds the window's block at every point, whether the point fetched it or
    the block index had not moved since the last fetch. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds the window's block at every point, whether the point fetched it or
    the block index had not moved since the last fetch. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds the window's block at every point, whether the point fetched it or
    the block index had not moved since the last fetch. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds the window's block at every point, whether the point fetched it or
    the block index had not moved since the last fetch. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a run of the pipeline -/

/-- Whatever the pipeline's bookkeeping `dats` says of the outputs: if its arrays are the launch contents and @main runs
    to the end with every staged array at what the bookkeeping computes and every other buffer as launched, then every
    argument array ends as it began — a staged input is never written back, the other sixteen are no window's array. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 5).trans (((dats 0 c).arrAt_in 5 rfl _).trans ((hA c 5).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

end Cert.Kernel.Frame

end
-- ==== Proof.KBodyBits.lean ====
/-
  The kernel body at one grid point, the pipeline's bookkeeping, and the whole run, at any float instance `F`.

  At a point the body loads the block of 128 rows of x, of h and of c, the two resident weight matrices and the bias
  row, computes the new cell state and the new hidden state of those 128 rows, and stores each over the whole of its
  output block (it also loads each output block just before overwriting it; the loaded value is used nowhere). So after
  the body an output's staging buffer holds one store's value over the whole block — `out0_7` the new cell state,
  `out0_6` the new hidden state, each a function of the six input blocks — and every input's buffer is as the body
  found it. The body needs nothing else of the machine, so the pipeline's invariant is the untouched rest. Running
  the pipeline over the 32 points with this bookkeeping gives the run, and the run gives the frame statement.
-/
import proofs.«145393_j68848325755666_2_alg».proof.Proof.KEntryBits

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every load and store is of a whole buffer -/

abbrev rA : Rect S128x1024 := Rect.unit (s := S128x1024) ![0, 0] S128x1024.size inb_S128x1024_S128x1024_0_0
abbrev rW : Rect S4096x1024 := Rect.unit (s := S4096x1024) ![0, 0] S4096x1024.size inb_S4096x1024_S4096x1024_0_0
abbrev rB : Rect S1x4096 := Rect.unit (s := S1x4096) ![0, 0] S1x4096.size inb_S1x4096_S1x4096_0_0

/-! ## What the body leaves in each output block -/

/-- The hidden-state block after the body: its one store, over the whole block, of the new hidden state computed from
    the six input blocks (x, h, the two weight matrices, the bias row, c). -/
def out0_6 (x0 : Vec F S128x1024 .f32) (x1 : Vec F S128x1024 .f32) (x2 : Vec F S4096x1024 .bf16) (x3 : Vec F S4096x1024 .bf16) (x4 : Vec F S1x4096 .f32) (x5 : Vec F S128x1024 .f32) : Vec F S128x1024 .f32 :=
  View.canon [⟨rA, k0_pay3 (View.ld x0 rA) (View.ld x2 rW) (View.ld x1 rA) (View.ld x3 rW) (View.ld x4 rB) (View.ld x5 rA)⟩]

/-- The cell-state block after the body: its one store, over the whole block, of the new cell state. -/
def out0_7 (x0 : Vec F S128x1024 .f32) (x1 : Vec F S128x1024 .f32) (x2 : Vec F S4096x1024 .bf16) (x3 : Vec F S4096x1024 .bf16) (x4 : Vec F S1x4096 .f32) (x5 : Vec F S128x1024 .f32) : Vec F S128x1024 .f32 :=
  View.canon [⟨rA, k0_pay2 (View.ld x0 rA) (View.ld x2 rW) (View.ld x1 rA) (View.ld x3 rW) (View.ld x4 rB) (View.ld x5 rA)⟩]

/-- One store over the whole block covers the block. -/
theorem cover0 (p0 : Vec F S128x1024 .f32) (y : S128x1024.Idx) :
    ∃ pc ∈ ([⟨rA, p0⟩] : List (View.Piece (Elt F) S128x1024 .f32)), y ∈ pc.1.set :=
  View.cover_of_tiled [⟨rA, p0⟩] S128x1024.size (by rfl) y

/-! ## The body's triple -/

set_option maxHeartbeats 1000000 in
/-- The body on whole staging buffers, the six inputs' at contents `x0 … x5` and the two outputs' at anything, runs to a
    continuation that holds the inputs' as they were and the outputs' at `out0_6`, `out0_7` of the inputs'. -/
theorem sound_kernel (c : Dev nD) (E : Set ℕ) (i : grid0.Coords) (arg1 : Memref sig .tc .vmem S128x1024 .f32) (harg1 : arg1.IsWhole) (arg2 : Memref sig .tc .vmem S128x1024 .f32) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S1x4096 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S128x1024 .f32) (harg8 : arg8.IsWhole)
    (x0 : Vec F S128x1024 .f32) (x1 : Vec F S128x1024 .f32) (x2 : Vec F S4096x1024 .bf16) (x3 : Vec F S4096x1024 .bf16) (x4 : Vec F S1x4096 .f32) (x5 : Vec F S128x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__lstm_kernel_body i arg1 harg1 arg2 harg2 arg3 harg3 arg4 harg4 arg5 harg5 arg6 harg6 arg7 harg7 arg8 harg8) K := by
  simp only [cc0__lstm_kernel_body_eq_skeleton]; unfold cc0__lstm_kernel_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

/-! ## The pipeline's bookkeeping -/

/-- On core `c`: the arrays as the launch finds them; after the body at point `t` each input's buffer at its block and each
    output's at its store's value over the input blocks; the invariant the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation at a point -/

/-- What the body is called with at point `t`: the invariant, nothing owed, and each window's current staging buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates without a fault, every array a
    window stages at what the bookkeeping computes and every other unscoped buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end and leaves every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.Kernel.Frame

end
-- ==== Proof.KEntry.lean ====
/-
  The program up to its one kernel launch, at any float instance `F`.

  @main first runs eight host operations — the four gate matrices of each weight family stacked along their output
  axis and narrowed to bf16, the two bias families stacked, added and laid out as one row — and then launches the
  kernel over a grid of 32 points, one per block of 128 batch rows. None of the eight writes an argument array, so the
  kernel finds all nineteen arguments as launched; `V` names every buffer's contents at that moment. Window `w`'s
  block at grid point `t` is read off `V` (`iblk`); an input window's staging buffer holds exactly that block at
  every point (the three resident windows — both weight matrices and the bias row — are fetched once and their block
  index never moves). Last, the frame statement follows from any run that ends with the staged argument arrays at what
  the pipeline's bookkeeping computes and every other buffer as the launch found it.
-/
import proofs.«145393_j68848325755666_2_alg».proof.Proof.Gen.KernelIdeal.Launch
import proofs.«145393_j68848325755666_2_alg».proof.Proof.Gen.KernelIdeal.Skeleton
import proofs.«145393_j68848325755666_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main up to the launch -/

/-- Core `c`'s buffers when the kernel is launched: the launch memory after the eight host operations. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations followed by the launch, and the launch finds the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the launch writes argument array 0: the kernel finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument array 1: the kernel finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument array 2: the kernel finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument array 3: the kernel finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument array 4: the kernel finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument array 5: the kernel finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument array 6: the kernel finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument array 7: the kernel finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument array 8: the kernel finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument array 9: the kernel finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument array 10: the kernel finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument array 11: the kernel finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument array 12: the kernel finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument array 13: the kernel finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument array 14: the kernel finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument array 15: the kernel finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument array 16: the kernel finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument array 17: the kernel finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
/-- No host operation before the launch writes argument array 18: the kernel finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds the window's block at every point, whether the point fetched it or
    the block index had not moved since the last fetch. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds the window's block at every point, whether the point fetched it or
    the block index had not moved since the last fetch. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds the window's block at every point, whether the point fetched it or
    the block index had not moved since the last fetch. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds the window's block at every point, whether the point fetched it or
    the block index had not moved since the last fetch. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds the window's block at every point, whether the point fetched it or
    the block index had not moved since the last fetch. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds the window's block at every point, whether the point fetched it or
    the block index had not moved since the last fetch. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a run of the pipeline -/

/-- Whatever the pipeline's bookkeeping `dats` says of the outputs: if its arrays are the launch contents and @main runs
    to the end with every staged array at what the bookkeeping computes and every other buffer as launched, then every
    argument array ends as it began — a staged input is never written back, the other sixteen are no window's array. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 5).trans (((dats 0 c).arrAt_in 5 rfl _).trans ((hA c 5).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

end Cert.KernelIdeal.Frame

end
-- ==== Proof.KBody.lean ====
/-
  The kernel body at one grid point, the pipeline's bookkeeping, and the whole run, at any float instance `F`.

  At a point the body loads the block of 128 rows of x, of h and of c, the two resident weight matrices and the bias
  row, computes the new cell state and the new hidden state of those 128 rows, and stores each over the whole of its
  output block (it also loads each output block just before overwriting it; the loaded value is used nowhere). So after
  the body an output's staging buffer holds one store's value over the whole block — `out0_7` the new cell state,
  `out0_6` the new hidden state, each a function of the six input blocks — and every input's buffer is as the body
  found it. The body needs nothing else of the machine, so the pipeline's invariant is the untouched rest. Running
  the pipeline over the 32 points with this bookkeeping gives the run, and the run gives the frame statement.
-/
import proofs.«145393_j68848325755666_2_alg».proof.Proof.KEntry

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every load and store is of a whole buffer -/

abbrev rA : Rect S128x1024 := Rect.unit (s := S128x1024) ![0, 0] S128x1024.size inb_S128x1024_S128x1024_0_0
abbrev rW : Rect S4096x1024 := Rect.unit (s := S4096x1024) ![0, 0] S4096x1024.size inb_S4096x1024_S4096x1024_0_0
abbrev rB : Rect S1x4096 := Rect.unit (s := S1x4096) ![0, 0] S1x4096.size inb_S1x4096_S1x4096_0_0

/-! ## What the body leaves in each output block -/

/-- The hidden-state block after the body: its one store, over the whole block, of the new hidden state computed from
    the six input blocks (x, h, the two weight matrices, the bias row, c). -/
def out0_6 (x0 : Vec F S128x1024 .f32) (x1 : Vec F S128x1024 .f32) (x2 : Vec F S4096x1024 .bf16) (x3 : Vec F S4096x1024 .bf16) (x4 : Vec F S1x4096 .f32) (x5 : Vec F S128x1024 .f32) : Vec F S128x1024 .f32 :=
  View.canon [⟨rA, k0_pay3 (View.ld x0 rA) (View.ld x2 rW) (View.ld x1 rA) (View.ld x3 rW) (View.ld x4 rB) (View.ld x5 rA)⟩]

/-- The cell-state block after the body: its one store, over the whole block, of the new cell state. -/
def out0_7 (x0 : Vec F S128x1024 .f32) (x1 : Vec F S128x1024 .f32) (x2 : Vec F S4096x1024 .bf16) (x3 : Vec F S4096x1024 .bf16) (x4 : Vec F S1x4096 .f32) (x5 : Vec F S128x1024 .f32) : Vec F S128x1024 .f32 :=
  View.canon [⟨rA, k0_pay2 (View.ld x0 rA) (View.ld x2 rW) (View.ld x1 rA) (View.ld x3 rW) (View.ld x4 rB) (View.ld x5 rA)⟩]

/-- One store over the whole block covers the block. -/
theorem cover0 (p0 : Vec F S128x1024 .f32) (y : S128x1024.Idx) :
    ∃ pc ∈ ([⟨rA, p0⟩] : List (View.Piece (Elt F) S128x1024 .f32)), y ∈ pc.1.set :=
  View.cover_of_tiled [⟨rA, p0⟩] S128x1024.size (by rfl) y

/-! ## The body's triple -/

set_option maxHeartbeats 1000000 in
/-- The body on whole staging buffers, the six inputs' at contents `x0 … x5` and the two outputs' at anything, runs to a
    continuation that holds the inputs' as they were and the outputs' at `out0_6`, `out0_7` of the inputs'. -/
theorem sound_kernel (c : Dev nD) (E : Set ℕ) (i : grid0.Coords) (arg1 : Memref sig .tc .vmem S128x1024 .f32) (harg1 : arg1.IsWhole) (arg2 : Memref sig .tc .vmem S128x1024 .f32) (harg2 : arg2.IsWhole) (arg3 : Memref sig .tc .vmem S4096x1024 .bf16) (harg3 : arg3.IsWhole) (arg4 : Memref sig .tc .vmem S4096x1024 .bf16) (harg4 : arg4.IsWhole) (arg5 : Memref sig .tc .vmem S1x4096 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S128x1024 .f32) (harg8 : arg8.IsWhole)
    (x0 : Vec F S128x1024 .f32) (x1 : Vec F S128x1024 .f32) (x2 : Vec F S4096x1024 .bf16) (x3 : Vec F S4096x1024 .bf16) (x4 : Vec F S1x4096 .f32) (x5 : Vec F S128x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__lstm_kernel_body i arg1 harg1 arg2 harg2 arg3 harg3 arg4 harg4 arg5 harg5 arg6 harg6 arg7 harg7 arg8 harg8) K := by
  simp only [cc0__lstm_kernel_body_eq_skeleton]; unfold cc0__lstm_kernel_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

/-! ## The pipeline's bookkeeping -/

/-- On core `c`: the arrays as the launch finds them; after the body at point `t` each input's buffer at its block and each
    output's at its store's value over the input blocks; the invariant the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation at a point -/

/-- What the body is called with at point `t`: the invariant, nothing owed, and each window's current staging buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates without a fault, every array a
    window stages at what the bookkeeping computes and every other unscoped buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end and leaves every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.Frame

end
-- ==== Proof.KBlocks.lean ====
/-
  From the run of the pipeline to the two result arrays block by block, at any float instance.

  The grid has 32 points; point `t` handles batch rows `128·t … 128·t + 127`. The windows of x, h, c and of the two
  results move with the point along the rows (block index `(t, 0)`), the two weight matrices and the bias row are
  one block each (block index `(0, 0)` at every point). Every point writes both result blocks back, the 32 row blocks
  tile each [4096, 1024] result, so every entry `(r, n)` of a result is written by exactly the point `r / 128`.
-/
import proofs.«145393_j68848325755666_2_alg».proof.Proof.KBody
import Idealize.ShloMosaic.Lib.Pipeline.Value
import Idealize.ShloMosaic.Lib.ValueIdx

noncomputable section

namespace Cert.KernelIdeal.KValue

open Cert.KernelIdeal Cert.KernelIdeal.Gen Cert.KernelIdeal.Frame Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg)

/-! ## What each point writes back -/

/-- Point `t` writes back, to the hidden-state result, the body's hidden-state block of the six input blocks at `t`. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t) (iblk m c 5 t)) := by
  show (cfg0.win 6).cut (grid0.coords t) ((dats m 0 c).after 6 t) = _
  rw [after0_6]

/-- and to the cell-state result the body's cell-state block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t) (iblk m c 5 t)) := by
  show (cfg0.win 7).cut (grid0.coords t) ((dats m 0 c).after 7 t) = _
  rw [after0_7]

/-! ## The run with the two results named -/

theorem post6 (r : PUnit × MemSt nD τ sig (Elt F)) (h : Pipeline.FramePost cfgs (dats m) 0 (V m) r) (c : Dev nD) :
    r.2.mem ((c : Thread nD τ).loc main_v8_0) = (dats m 0 c).arrAt 6 cfg0.N :=
  (h c).1 6

theorem post7 (r : PUnit × MemSt nD τ sig (Elt F)) (h : Pipeline.FramePost cfgs (dats m) 0 (V m) r) (c : Dev nD) :
    r.2.mem ((c : Thread nD τ).loc main_v8_1) = (dats m 0 c).arrAt 7 cfg0.N :=
  (h c).1 7

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 5).trans (((dats m 0 c).arrAt_in 5 rfl _).trans ((A_eq m c 5).trans (V_main_arg2 m c)))
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)
theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).2 main_arg18 (Pipeline.mem_restRefs_of main_arg18 (by decide) (by decide))).trans (V_main_arg18 m c)

/-- The run, each result at what the pipeline's bookkeeping assembles from the written-back blocks, every argument
    as launched. -/
theorem run_blocks : θ_run defs (onTc (τ := τ) (main (F := F))) ⟨m, fun _ => 0, ρ⟩ fun r => ∀ c : Dev nD,
      r.2.mem ((c : Thread nD τ).loc main_v8_0) = (dats m 0 c).arrAt 6 cfg0.N
      ∧ r.2.mem ((c : Thread nD τ).loc main_v8_1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨post6 m r h c, post7 m r h c, kept_main_arg0 m r h c, kept_main_arg1 m r h c, kept_main_arg2 m r h c, kept_main_arg3 m r h c, kept_main_arg4 m r h c, kept_main_arg5 m r h c, kept_main_arg6 m r h c, kept_main_arg7 m r h c, kept_main_arg8 m r h c, kept_main_arg9 m r h c, kept_main_arg10 m r h c, kept_main_arg11 m r h c, kept_main_arg12 m r h c, kept_main_arg13 m r h c, kept_main_arg14 m r h c, kept_main_arg15 m r h c, kept_main_arg16 m r h c, kept_main_arg17 m r h c, kept_main_arg18 m r h c⟩)
    (run_main m ρ)

/-! ## The index maps over the grid -/

theorem hz : (![0, 0] : Fin 2 → Nat) = fun _ => 0 := funext fun a => by fin_cases a <;> rfl

/-- The block index of every window at every point, decided over the 32 points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem point_lt (t : Fin cfg0.N) : t.val < 32 := lt_of_lt_of_eq t.isLt N_0

/-- Batch row `128·t + p`: row `p` of point `t`'s block. -/
def row (t : Fin cfg0.N) (p : Fin 128) : Fin 4096 := ⟨t.val * 128 + p.val, by have := point_lt t; have := p.isLt; omega⟩

@[simp] theorem row_val (t : Fin cfg0.N) (p : Fin 128) : (row t p).val = t.val * 128 + p.val := rfl

/-! ## Which entries a point's result block holds -/

theorem mem_blk6 (t : Fin cfg0.N) (i : S4096x1024.Idx) :
    i ∈ ((cfg0.win 6).blk t).view.set ↔ ∀ a : Fin 2, win0_6.index t a * S128x1024.size a ≤ (i a).val ∧ (i a).val < win0_6.index t a * S128x1024.size a + S128x1024.size a := by
  show i ∈ ((View.whole main_v8_0).slice (win0_6.rect t)).set ↔ _
  rw [View.set_slice_whole, Rect.mem_set_unit]
  exact Iff.rfl

theorem mem_blk7 (t : Fin cfg0.N) (i : S4096x1024.Idx) :
    i ∈ ((cfg0.win 7).blk t).view.set ↔ ∀ a : Fin 2, win0_7.index t a * S128x1024.size a ≤ (i a).val ∧ (i a).val < win0_7.index t a * S128x1024.size a + S128x1024.size a := by
  show i ∈ ((View.whole main_v8_1).slice (win0_7.rect t)).set ↔ _
  rw [View.set_slice_whole, Rect.mem_set_unit]
  exact Iff.rfl

/-- Every entry of the hidden-state result lies in the block of the point its row belongs to. -/
theorem cover6 (i : S4096x1024.Idx) : ∃ t : Fin cfg0.N, (cfg0.win 6).flush t = true ∧ i ∈ ((cfg0.win 6).blk t).view.set := by
  have hi0 : (i 0).val < 4096 := (i 0).isLt
  have hi1 : (i 1).val < 1024 := (i 1).isLt
  let t : Fin cfg0.N := ⟨(i 0).val / 128, by show (i 0).val / 128 < grid0.N; rw [N_0]; omega⟩
  have htv : t.val = (i 0).val / 128 := rfl
  obtain ⟨_, _, _, _, _, _, e0, e1, _⟩ := idx_facts t
  refine ⟨t, flush0_6 t, ?_⟩
  rw [mem_blk6]
  intro a
  match a with
  | ⟨0, _⟩ => show win0_6.index t (0 : Fin 2) * 128 ≤ (i 0).val ∧ (i 0).val < win0_6.index t (0 : Fin 2) * 128 + 128; omega
  | ⟨1, _⟩ => show win0_6.index t (1 : Fin 2) * 1024 ≤ (i 1).val ∧ (i 1).val < win0_6.index t (1 : Fin 2) * 1024 + 1024; omega

/-- The same for the cell-state result. -/
theorem cover7 (i : S4096x1024.Idx) : ∃ t : Fin cfg0.N, (cfg0.win 7).flush t = true ∧ i ∈ ((cfg0.win 7).blk t).view.set := by
  have hi0 : (i 0).val < 4096 := (i 0).isLt
  have hi1 : (i 1).val < 1024 := (i 1).isLt
  let t : Fin cfg0.N := ⟨(i 0).val / 128, by show (i 0).val / 128 < grid0.N; rw [N_0]; omega⟩
  have htv : t.val = (i 0).val / 128 := rfl
  obtain ⟨_, _, _, _, _, _, _, _, e0, e1, _⟩ := idx_facts t
  refine ⟨t, flush0_7 t, ?_⟩
  rw [mem_blk7]
  intro a
  match a with
  | ⟨0, _⟩ => show win0_7.index t (0 : Fin 2) * 128 ≤ (i 0).val ∧ (i 0).val < win0_7.index t (0 : Fin 2) * 128 + 128; omega
  | ⟨1, _⟩ => show win0_7.index t (1 : Fin 2) * 1024 ≤ (i 1).val ∧ (i 1).val < win0_7.index t (1 : Fin 2) * 1024 + 1024; omega

end Cert.KernelIdeal.KValue

end
-- ==== Proof.LstmSpec.lean ====
/-
  One step of an LSTM cell over a batch of 4096 rows, input width 1024, hidden width 1024, as ONE function of
  the argument arrays on the extended reals, entry by entry.

  The four gates' weights arrive stacked along their output axis: `Wx`, `Uh` : [4096, 1024] (row `1024·g + n` is
  output unit `n` of gate `g`, the gates in the order input, forget, cell, output) and the two bias vectors `bx`,
  `bh` : [4096] stacked the same way. For batch row `b` and stacked column `j` the pre-activation is

      gate b j = ((Σ_k x[b,k]·Wx[j,k]) + (Σ_k h[b,k]·Uh[j,k]) + bx[j]) + bh[j],

  and for hidden unit `n`

      cNew b n = σ(gate b (1024+n)) · c[b,n] + σ(gate b n) · tanh(gate b (2048+n)),
      hNew b n = σ(gate b (3072+n)) · tanh(cNew b n),

  σ the logistic function. Sums, products, σ and tanh are the extended reals' (σ(−∞) = 0, σ(+∞) = 1).
  The only law used between two arrangements of this formula is associativity of addition, which holds on the
  extended reals with no finiteness assumption.
-/
import Idealize.ShloMosaic.PureOps.Ideal
import Idealize.ShloMosaic.Lib.ValueIdx

noncomputable section

namespace Cert.LstmSpec

open Idealize.ShloMosaic Idealize.ShloMosaic.ValueIdx

/-- A [4096, 1024] array of extended reals. -/
abbrev Mat := FVec Ideal (⟨2, ![4096, 1024]⟩ : Shape) .f32
/-- A [4096] array of extended reals. -/
abbrev Row := FVec Ideal (⟨1, ![4096]⟩ : Shape) .f32

/-- Stacked column of hidden unit `n` in gate `g` (`g = 0, 1, 2, 3`: input, forget, cell, output). -/
def col (g : Nat) (hg : g < 4) (n : Fin 1024) : Fin 4096 := ⟨1024 * g + n.val, by have := n.isLt; omega⟩

@[simp] theorem col_val (g : Nat) (hg : g < 4) (n : Fin 1024) : (col g hg n).val = 1024 * g + n.val := rfl

/-- The pre-activation of stacked column `j` for batch row `b`: both contractions over the 1024 input, resp.
    hidden, units, then the two biases added one after the other. -/
def gate (x h Wx Uh : Mat) (bx bh : Row) (b : Fin 4096) (j : Fin 4096) : EReal :=
  (∑ k : Fin 1024, x (ix2 b k) * Wx (ix2 j k)) + (∑ k : Fin 1024, h (ix2 b k) * Uh (ix2 j k)) + bx (ix1 j) + bh (ix1 j)

/-- The same pre-activation with the two biases added to each other first: associativity of addition. -/
theorem gate_bias_first (x h Wx Uh : Mat) (bx bh : Row) (b : Fin 4096) (j : Fin 4096) :
    (∑ k : Fin 1024, x (ix2 b k) * Wx (ix2 j k)) + (∑ k : Fin 1024, h (ix2 b k) * Uh (ix2 j k)) + (bx (ix1 j) + bh (ix1 j))
      = gate x h Wx Uh bx bh b j := by
  unfold gate; rw [add_assoc, add_assoc, add_assoc]

/-- The new cell state at batch row `b`, hidden unit `n`: forget gate times the old state plus input gate times
    the candidate. -/
def cNew (x h c Wx Uh : Mat) (bx bh : Row) (b : Fin 4096) (n : Fin 1024) : EReal :=
  Ideal.logistic (gate x h Wx Uh bx bh b (col 1 (by omega) n)) * c (ix2 b n)
    + Ideal.logistic (gate x h Wx Uh bx bh b (col 0 (by omega) n)) * Ideal.tanh (gate x h Wx Uh bx bh b (col 2 (by omega) n))

/-- The new hidden state: output gate times tanh of the new cell state. -/
def hNew (x h c Wx Uh : Mat) (bx bh : Row) (b : Fin 4096) (n : Fin 1024) : EReal :=
  Ideal.logistic (gate x h Wx Uh bx bh b (col 3 (by omega) n)) * Ideal.tanh (cNew x h c Wx Uh bx bh b n)

/-- The new cell state as a [4096, 1024] array. -/
def cOut (x h c Wx Uh : Mat) (bx bh : Row) : Mat := fun i => cNew x h c Wx Uh bx bh (i 0) (i 1)

/-- The new hidden state as a [4096, 1024] array. -/
def hOut (x h c Wx Uh : Mat) (bx bh : Row) : Mat := fun i => hNew x h c Wx Uh bx bh (i 0) (i 1)

theorem cOut_apply (x h c Wx Uh : Mat) (bx bh : Row) (b : Fin 4096) (n : Fin 1024) :
    cOut x h c Wx Uh bx bh (ix2 b n) = cNew x h c Wx Uh bx bh b n := rfl

theorem hOut_apply (x h c Wx Uh : Mat) (bx bh : Row) (b : Fin 4096) (n : Fin 1024) :
    hOut x h c Wx Uh bx bh (ix2 b n) = hNew x h c Wx Uh bx bh b n := rfl

end Cert.LstmSpec

end
-- ==== Proof.KPayload.lean ====
/-
  The arithmetic of the kernel's body on one block of 128 batch rows, read entry by entry on the extended reals.

  The body forms the pre-activations of the block, a [128, 4096] array: the x block times the transposed stacked
  input weights plus the h block times the transposed stacked hidden weights (each a contraction over 1024 terms,
  both operands contracted along their second axis), plus the one bias row repeated down the 128 rows. The four
  gates are the four column blocks of width 1024 of that array; the new cell state and the new hidden state follow
  from them by the logistic function, tanh, products and one sum, entry by entry.
-/
import proofs.«145393_j68848325755666_2_alg».proof.Proof.Gen.KernelIdeal.Skeleton
import proofs.«145393_j68848325755666_2_alg».proof.Proof.LstmSpec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.KernelIdeal.KValue

open Cert.KernelIdeal Cert.KernelIdeal.Gen Cert.LstmSpec

/-- The dimension numbers of the body's two products: axis 1 of the left operand against axis 1 of the right. -/
abbrev D := dot_S128x1024_S4096x1024_S128x4096_1_1_0_0_n_n

/-- The left operand's row coordinate is the result's row coordinate. -/
theorem lhs_0 (i : S128x4096.Idx) (q : D.contr.Idx) : (D.lhsIdx i q 0).val = (i 0).val := by
  unfold DotDims.lhsIdx
  rw [dif_neg (show ¬(0 : Fin S128x1024.rank) ∈ D.lhsBatch by decide), dif_pos (show (0 : Fin S128x1024.rank) ∈ D.lhsNonContracting by decide)]
  rfl
/-- The left operand's column coordinate is the contraction position. -/
theorem lhs_1 (i : S128x4096.Idx) (q : D.contr.Idx) : (D.lhsIdx i q 1).val = (q ⟨0, by decide⟩).val :=
  D.lhsIdx_val_of_single rfl i q
/-- The right operand's row coordinate is the result's column coordinate. -/
theorem rhs_0 (i : S128x4096.Idx) (q : D.contr.Idx) : (D.rhsIdx i q 0).val = (i 1).val := by
  unfold DotDims.rhsIdx
  rw [dif_neg (show ¬(0 : Fin S4096x1024.rank) ∈ D.rhsBatch by decide), dif_pos (show (0 : Fin S4096x1024.rank) ∈ D.rhsNonContracting by decide)]
  rfl
/-- The right operand's column coordinate is the contraction position. -/
theorem rhs_1 (i : S128x4096.Idx) (q : D.contr.Idx) : (D.rhsIdx i q 1).val = (q ⟨0, by decide⟩).val :=
  D.rhsIdx_val_of_single rfl i q

/-- A [128, 1024] array times the transpose of a [4096, 1024] array, accumulated into zero: entry (p, j) is the
    sum over k of left (p, k) times right (j, k). -/
theorem matmul_nt_apply (A : FVec Ideal S128x1024 .bf16) (B : FVec Ideal S4096x1024 .bf16) (p : Fin 128) (j : Fin 4096) :
    matmul (F := Ideal) D none A B (constant (F := Ideal) S128x4096 .f32 0x00000000#32) (ix2 p j)
      = ∑ k : Fin 1024, A (ix2 p k) * B (ix2 j k) := by
  refine (Ideal.matmul_constant_zero_apply D none A B (ix2 p j)).trans ?_
  rw [← Equiv.sum_comp (contrEquiv1 D 1024 rfl rfl).symm]
  refine Finset.sum_congr rfl fun k _ => ?_
  have hk := contrEquiv1_symm_val D 1024 rfl rfl k
  have el : D.lhsIdx (ix2 p j) ((contrEquiv1 D 1024 rfl rfl).symm k) = ix2 p k := funext fun a => Fin.ext (by
    match a with
    | ⟨0, _⟩ => exact lhs_0 _ _
    | ⟨1, _⟩ => exact (lhs_1 _ _).trans hk)
  have er : D.rhsIdx (ix2 p j) ((contrEquiv1 D 1024 rfl rfl).symm k) = ix2 j k := funext fun a => Fin.ext (by
    match a with
    | ⟨0, _⟩ => exact rhs_0 _ _
    | ⟨1, _⟩ => exact (rhs_1 _ _).trans hk)
  rw [el, er]

/-- The pre-activation of block row `p` and stacked column `j`: the two contractions over 1024 terms and the bias
    row's entry. -/
def pre (v0 v5 : Vec Ideal S128x1024 .f32) (v2 v7 : Vec Ideal S4096x1024 .bf16) (v11 : Vec Ideal S1x4096 .f32)
    (p : Fin 128) (j : Fin 4096) : EReal :=
  (∑ k : Fin 1024, v0 (ix2 p k) * v2 (ix2 j k)) + (∑ k : Fin 1024, v5 (ix2 p k) * v7 (ix2 j k)) + v11 (ix2 0 j)

variable (v0 v5 v23 : Vec Ideal S128x1024 .f32) (v2 v7 : Vec Ideal S4096x1024 .bf16) (v11 : Vec Ideal S1x4096 .f32)

/-- The body's pre-activation array read at (p, j). -/
theorem pay1_apply (p : Fin 128) (j : Fin 4096) :
    k0_pay1 (F := Ideal) v0 v2 v5 v7 v11 (ix2 p j)
      = (∑ k : Fin 1024, v0 (ix2 p k) * v2 (ix2 j k)) + (∑ k : Fin 1024, v5 (ix2 p k) * v7 (ix2 j k)) + v11 (ix2 0 j) := by
  unfold k0_pay1
  rw [addf_apply, addf_apply, shapeCast_self, shapeCast_self, shapeCast_self]
  rw [matmul_nt_apply, matmul_nt_apply, broadcastTo_1b_ab_apply]
  rfl

/-- The logistic function of an array, read at an index. -/
theorem logistic_apply {s : Shape} {φ : FTy} (a : FVec Ideal s φ) (i : s.Idx) : logistic a i = Ideal.logistic (a i) := rfl
/-- The hyperbolic tangent of an array, read at an index. -/
theorem tanh_apply {s : Shape} {φ : FTy} (a : FVec Ideal s φ) (i : s.Idx) : tanh a i = Ideal.tanh (a i) := rfl

/-- The pre-activation array is `pre` entry by entry. -/
theorem pay1_eq_pre (p : Fin 128) (j : Fin 4096) :
    k0_pay1 (F := Ideal) v0 v2 v5 v7 v11 (ix2 p j) = pre v0 v5 v2 v7 v11 p j := pay1_apply v0 v5 v2 v7 v11 p j

/-- Column block 0 of the pre-activations (the input gate's) at (p, n). -/
theorem gate0_apply (p : Fin 128) (n : Fin 1024) :
    extractStridedSlice S128x1024 ![0, 0] (k0_pay1 (F := Ideal) v0 v2 v5 v7 v11) slices_S128x4096_o0_0_S128x1024 (ix2 p n)
      = pre v0 v5 v2 v7 v11 p (col 0 (by omega) n) :=
  (slice2_axis1_apply 0 _ slices_S128x4096_o0_0_S128x1024 p n (col 0 (by omega) n)
    (by show 1024 * 0 + n.val = 0 + n.val; omega)).trans (pay1_eq_pre v0 v5 v2 v7 v11 p _)
/-- Column block 1 (the forget gate's) at (p, n). -/
theorem gate1_apply (p : Fin 128) (n : Fin 1024) :
    extractStridedSlice S128x1024 ![0, 1024] (k0_pay1 (F := Ideal) v0 v2 v5 v7 v11) slices_S128x4096_o0_1024_S128x1024 (ix2 p n)
      = pre v0 v5 v2 v7 v11 p (col 1 (by omega) n) :=
  (slice2_axis1_apply 1024 _ slices_S128x4096_o0_1024_S128x1024 p n (col 1 (by omega) n)
    (by show 1024 * 1 + n.val = 1024 + n.val; omega)).trans (pay1_eq_pre v0 v5 v2 v7 v11 p _)
/-- Column block 2 (the cell candidate's) at (p, n). -/
theorem gate2_apply (p : Fin 128) (n : Fin 1024) :
    extractStridedSlice S128x1024 ![0, 2048] (k0_pay1 (F := Ideal) v0 v2 v5 v7 v11) slices_S128x4096_o0_2048_S128x1024 (ix2 p n)
      = pre v0 v5 v2 v7 v11 p (col 2 (by omega) n) :=
  (slice2_axis1_apply 2048 _ slices_S128x4096_o0_2048_S128x1024 p n (col 2 (by omega) n)
    (by show 1024 * 2 + n.val = 2048 + n.val; omega)).trans (pay1_eq_pre v0 v5 v2 v7 v11 p _)
/-- Column block 3 (the output gate's) at (p, n). -/
theorem gate3_apply (p : Fin 128) (n : Fin 1024) :
    extractStridedSlice S128x1024 ![0, 3072] (k0_pay1 (F := Ideal) v0 v2 v5 v7 v11) slices_S128x4096_o0_3072_S128x1024 (ix2 p n)
      = pre v0 v5 v2 v7 v11 p (col 3 (by omega) n) :=
  (slice2_axis1_apply 3072 _ slices_S128x4096_o0_3072_S128x1024 p n (col 3 (by omega) n)
    (by show 1024 * 3 + n.val = 3072 + n.val; omega)).trans (pay1_eq_pre v0 v5 v2 v7 v11 p _)

/-- The new cell state of block row `p`, hidden unit `n`. -/
def cell (v0 v5 v23 : Vec Ideal S128x1024 .f32) (v2 v7 : Vec Ideal S4096x1024 .bf16) (v11 : Vec Ideal S1x4096 .f32)
    (p : Fin 128) (n : Fin 1024) : EReal :=
  Ideal.logistic (pre v0 v5 v2 v7 v11 p (col 1 (by omega) n)) * v23 (ix2 p n)
    + Ideal.logistic (pre v0 v5 v2 v7 v11 p (col 0 (by omega) n)) * Ideal.tanh (pre v0 v5 v2 v7 v11 p (col 2 (by omega) n))

/-- The body's new cell state read at (p, n): forget gate times the old state plus input gate times the candidate. -/
theorem pay2_apply (p : Fin 128) (n : Fin 1024) :
    k0_pay2 (F := Ideal) v0 v2 v5 v7 v11 v23 (ix2 p n)
      = Ideal.logistic (pre v0 v5 v2 v7 v11 p (col 1 (by omega) n)) * v23 (ix2 p n)
        + Ideal.logistic (pre v0 v5 v2 v7 v11 p (col 0 (by omega) n)) * Ideal.tanh (pre v0 v5 v2 v7 v11 p (col 2 (by omega) n)) := by
  unfold k0_pay2
  rw [addf_apply, mulf_apply, mulf_apply, logistic_apply, logistic_apply, tanh_apply,
    gate0_apply, gate1_apply, gate2_apply]

/-- The body's new hidden state read at (p, n): output gate times tanh of the new cell state. -/
theorem pay3_apply (p : Fin 128) (n : Fin 1024) :
    k0_pay3 (F := Ideal) v0 v2 v5 v7 v11 v23 (ix2 p n)
      = Ideal.logistic (pre v0 v5 v2 v7 v11 p (col 3 (by omega) n))
        * Ideal.tanh (Ideal.logistic (pre v0 v5 v2 v7 v11 p (col 1 (by omega) n)) * v23 (ix2 p n)
          + Ideal.logistic (pre v0 v5 v2 v7 v11 p (col 0 (by omega) n)) * Ideal.tanh (pre v0 v5 v2 v7 v11 p (col 2 (by omega) n))) := by
  unfold k0_pay3
  rw [mulf_apply, logistic_apply, tanh_apply, gate3_apply, pay2_apply]

end Cert.KernelIdeal.KValue

end
-- ==== Proof.KHost.lean ====
/-
  What the host operations that run before the kernel's launch leave in the three buffers the kernel reads and they
  wrote, on the extended reals.

  The four gate matrices of the input weights are stacked along their output axis and narrowed to bf16 — on the
  extended reals narrowing is the identity, so the buffer holds the stacked matrix itself; the same for the hidden
  weights. The two bias families are stacked the same way, added entry by entry, and the sum of length 4096 is laid
  out as one row [1, 4096]: its entry (0, j) is the sum of the two stacked biases at j.
-/
import proofs.«145393_j68848325755666_2_alg».proof.Proof.KEntry
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx

namespace Cert.KernelIdeal.KValue

open Cert.KernelIdeal Cert.KernelIdeal.Gen Cert.KernelIdeal.Frame

variable (m : (ℓ : Loc nD τ sig) → Buf (Elt Ideal) ℓ) (c : Dev nD)

/-- The stacked input weights the kernel reads: the four gate matrices as launched, joined along axis 0. -/
theorem V_v1 : (V m c main_v1 : S4096x1024.Idx → EReal)
    = concatenate S4096x1024 0 [⟨S1024x1024, m ((c : Thread nD τ).loc main_arg3)⟩, ⟨S1024x1024, m ((c : Thread nD τ).loc main_arg5)⟩,
        ⟨S1024x1024, m ((c : Thread nD τ).loc main_arg7)⟩, ⟨S1024x1024, m ((c : Thread nD τ).loc main_arg9)⟩]
        concatenates_S1024x1024_S1024x1024_S1024x1024_S1024x1024_S4096x1024_d0 := by
  dsimp only [V, hostOps0]
  after_results
  rfl

/-- The stacked hidden weights the kernel reads: the four gate matrices as launched, joined along axis 0. -/
theorem V_v3 : (V m c main_v3 : S4096x1024.Idx → EReal)
    = concatenate S4096x1024 0 [⟨S1024x1024, m ((c : Thread nD τ).loc main_arg11)⟩, ⟨S1024x1024, m ((c : Thread nD τ).loc main_arg13)⟩,
        ⟨S1024x1024, m ((c : Thread nD τ).loc main_arg15)⟩, ⟨S1024x1024, m ((c : Thread nD τ).loc main_arg17)⟩]
        concatenates_S1024x1024_S1024x1024_S1024x1024_S1024x1024_S4096x1024_d0 := by
  dsimp only [V, hostOps0]
  after_results
  rfl

/-- The bias row the kernel reads, as an array: the sum of the two stacked bias vectors laid out as [1, 4096]. -/
theorem V_v7 : (V m c main_v7 : S1x4096.Idx → EReal)
    = shapeCast S1x4096
        (addf (F := Ideal) (φ := .f32)
          (concatenate S4096 0 [⟨S1024, m ((c : Thread nD τ).loc main_arg4)⟩, ⟨S1024, m ((c : Thread nD τ).loc main_arg6)⟩,
            ⟨S1024, m ((c : Thread nD τ).loc main_arg8)⟩, ⟨S1024, m ((c : Thread nD τ).loc main_arg10)⟩]
            concatenates_S1024_S1024_S1024_S1024_S4096_d0)
          (concatenate S4096 0 [⟨S1024, m ((c : Thread nD τ).loc main_arg12)⟩, ⟨S1024, m ((c : Thread nD τ).loc main_arg14)⟩,
            ⟨S1024, m ((c : Thread nD τ).loc main_arg16)⟩, ⟨S1024, m ((c : Thread nD τ).loc main_arg18)⟩]
            concatenates_S1024_S1024_S1024_S1024_S4096_d0))
        shapeCasts_S4096_S1x4096 := by
  dsimp only [V, hostOps0]
  after_results
  rfl

/-- The bias row's entry (0, j): the two stacked biases at j, added. -/
theorem V_v7_apply (j : Fin 4096) :
    (V m c main_v7 : S1x4096.Idx → EReal) (ix2 0 j)
      = (concatenate S4096 0 [⟨S1024, m ((c : Thread nD τ).loc main_arg4)⟩, ⟨S1024, m ((c : Thread nD τ).loc main_arg6)⟩,
            ⟨S1024, m ((c : Thread nD τ).loc main_arg8)⟩, ⟨S1024, m ((c : Thread nD τ).loc main_arg10)⟩]
            concatenates_S1024_S1024_S1024_S1024_S4096_d0 : S4096.Idx → EReal) (ix1 j)
        + (concatenate S4096 0 [⟨S1024, m ((c : Thread nD τ).loc main_arg12)⟩, ⟨S1024, m ((c : Thread nD τ).loc main_arg14)⟩,
            ⟨S1024, m ((c : Thread nD τ).loc main_arg16)⟩, ⟨S1024, m ((c : Thread nD τ).loc main_arg18)⟩]
            concatenates_S1024_S1024_S1024_S1024_S4096_d0 : S4096.Idx → EReal) (ix1 j) := by
  refine (congrFun (V_v7 m c) (ix2 0 j)).trans ?_
  refine (shapeCast_a_1a_apply _ shapeCasts_S4096_S1x4096 0 j).trans ?_
  rfl

end Cert.KernelIdeal.KValue

end
-- ==== Proof.KValue.lean ====
/-
  The two result arrays of the kernel as one function of the arguments, on the extended reals.

  At point `t` the body sees rows `128·t … 128·t+127` of x, h and c, the whole of both stacked weight matrices
  (narrowed to bf16 by the host, which on the extended reals changes nothing) and the bias row, whose entry `j` the
  host computed as bx[j] + bh[j]. So the block-level pre-activation of block row `p` and stacked column `j` is the
  specification's pre-activation of batch row `128·t + p` with the two biases added to each other first, and
  associativity of addition makes it the specification's. The new cell and hidden states of the block follow entry by
  entry; the 32 row blocks tile each result; hence each result array is the specification's.
-/
import proofs.«145393_j68848325755666_2_alg».proof.Proof.KBlocks
import proofs.«145393_j68848325755666_2_alg».proof.Proof.KPayload
import proofs.«145393_j68848325755666_2_alg».proof.Proof.KHost
import proofs.«145393_j68848325755666_2_alg».proof.Proof.LstmSpec

noncomputable section

namespace Cert.KernelIdeal.KValue

open Cert.KernelIdeal Cert.KernelIdeal.Gen Cert.KernelIdeal.Frame Idealize.ShloMosaic Idealize.ShloMosaic.TcCoe Idealize.SL.Sem
open Idealize.ShloMosaic.Pipeline (Dat)
open Idealize.ShloMosaic.ValueIdx Cert.LstmSpec

variable (m : (ℓ : Loc nD τ sig) → Buf (Elt Ideal) ℓ) (ρ : Dev nD → PrngReg)

/-! ## The stacked weights and biases, as launched -/

/-- The four input-to-hidden gate matrices stacked along their output axis. -/
def Wx (c : Dev nD) : Mat :=
  concatenate S4096x1024 0 [⟨S1024x1024, (m ((c : Thread nD τ).loc main_arg3))⟩, ⟨S1024x1024, (m ((c : Thread nD τ).loc main_arg5))⟩, ⟨S1024x1024, (m ((c : Thread nD τ).loc main_arg7))⟩, ⟨S1024x1024, (m ((c : Thread nD τ).loc main_arg9))⟩] concatenates_S1024x1024_S1024x1024_S1024x1024_S1024x1024_S4096x1024_d0
/-- The four hidden-to-hidden gate matrices stacked the same way. -/
def Uh (c : Dev nD) : Mat :=
  concatenate S4096x1024 0 [⟨S1024x1024, (m ((c : Thread nD τ).loc main_arg11))⟩, ⟨S1024x1024, (m ((c : Thread nD τ).loc main_arg13))⟩, ⟨S1024x1024, (m ((c : Thread nD τ).loc main_arg15))⟩, ⟨S1024x1024, (m ((c : Thread nD τ).loc main_arg17))⟩] concatenates_S1024x1024_S1024x1024_S1024x1024_S1024x1024_S4096x1024_d0
/-- The four input-side gate biases stacked. -/
def bx (c : Dev nD) : Row :=
  concatenate S4096 0 [⟨S1024, (m ((c : Thread nD τ).loc main_arg4))⟩, ⟨S1024, (m ((c : Thread nD τ).loc main_arg6))⟩, ⟨S1024, (m ((c : Thread nD τ).loc main_arg8))⟩, ⟨S1024, (m ((c : Thread nD τ).loc main_arg10))⟩] concatenates_S1024_S1024_S1024_S1024_S4096_d0
/-- The four hidden-side gate biases stacked. -/
def bh (c : Dev nD) : Row :=
  concatenate S4096 0 [⟨S1024, (m ((c : Thread nD τ).loc main_arg12))⟩, ⟨S1024, (m ((c : Thread nD τ).loc main_arg14))⟩, ⟨S1024, (m ((c : Thread nD τ).loc main_arg16))⟩, ⟨S1024, (m ((c : Thread nD τ).loc main_arg18))⟩] concatenates_S1024_S1024_S1024_S1024_S4096_d0

/-! ## Where a block's entry sits in its array -/

theorem emb0 (t : Fin cfg0.N) (p : Fin 128) (k : Fin 1024) :
    ((cfg0.win 0).blk t).view.emb (ix2 p k) = ix2 (row t p) k := by
  have hf := idx_facts t
  funext a; apply Fin.ext
  match a with
  | ⟨0, _⟩ => show win0_0.index t (0 : Fin 2) * 128 + 1 * p.val = t.val * 128 + p.val; omega
  | ⟨1, _⟩ => show win0_0.index t (1 : Fin 2) * 1024 + 1 * k.val = k.val; omega
theorem emb1 (t : Fin cfg0.N) (p : Fin 128) (k : Fin 1024) :
    ((cfg0.win 1).blk t).view.emb (ix2 p k) = ix2 (row t p) k := by
  have hf := idx_facts t
  funext a; apply Fin.ext
  match a with
  | ⟨0, _⟩ => show win0_1.index t (0 : Fin 2) * 128 + 1 * p.val = t.val * 128 + p.val; omega
  | ⟨1, _⟩ => show win0_1.index t (1 : Fin 2) * 1024 + 1 * k.val = k.val; omega
theorem emb5 (t : Fin cfg0.N) (p : Fin 128) (k : Fin 1024) :
    ((cfg0.win 5).blk t).view.emb (ix2 p k) = ix2 (row t p) k := by
  have hf := idx_facts t
  funext a; apply Fin.ext
  match a with
  | ⟨0, _⟩ => show win0_5.index t (0 : Fin 2) * 128 + 1 * p.val = t.val * 128 + p.val; omega
  | ⟨1, _⟩ => show win0_5.index t (1 : Fin 2) * 1024 + 1 * k.val = k.val; omega
theorem emb6 (t : Fin cfg0.N) (p : Fin 128) (k : Fin 1024) :
    ((cfg0.win 6).blk t).view.emb (ix2 p k) = ix2 (row t p) k := by
  have hf := idx_facts t
  funext a; apply Fin.ext
  match a with
  | ⟨0, _⟩ => show win0_6.index t (0 : Fin 2) * 128 + 1 * p.val = t.val * 128 + p.val; omega
  | ⟨1, _⟩ => show win0_6.index t (1 : Fin 2) * 1024 + 1 * k.val = k.val; omega
theorem emb7 (t : Fin cfg0.N) (p : Fin 128) (k : Fin 1024) :
    ((cfg0.win 7).blk t).view.emb (ix2 p k) = ix2 (row t p) k := by
  have hf := idx_facts t
  funext a; apply Fin.ext
  match a with
  | ⟨0, _⟩ => show win0_7.index t (0 : Fin 2) * 128 + 1 * p.val = t.val * 128 + p.val; omega
  | ⟨1, _⟩ => show win0_7.index t (1 : Fin 2) * 1024 + 1 * k.val = k.val; omega
theorem emb2 (t : Fin cfg0.N) (p : Fin 4096) (k : Fin 1024) :
    ((cfg0.win 2).blk t).view.emb (ix2 p k) = ix2 p k := by
  have hf := idx_facts t
  funext a; apply Fin.ext
  match a with
  | ⟨0, _⟩ => show win0_2.index t (0 : Fin 2) * 4096 + 1 * p.val = p.val; omega
  | ⟨1, _⟩ => show win0_2.index t (1 : Fin 2) * 1024 + 1 * k.val = k.val; omega
theorem emb3 (t : Fin cfg0.N) (p : Fin 4096) (k : Fin 1024) :
    ((cfg0.win 3).blk t).view.emb (ix2 p k) = ix2 p k := by
  have hf := idx_facts t
  funext a; apply Fin.ext
  match a with
  | ⟨0, _⟩ => show win0_3.index t (0 : Fin 2) * 4096 + 1 * p.val = p.val; omega
  | ⟨1, _⟩ => show win0_3.index t (1 : Fin 2) * 1024 + 1 * k.val = k.val; omega
theorem emb4 (t : Fin cfg0.N) (p : Fin 1) (k : Fin 4096) :
    ((cfg0.win 4).blk t).view.emb (ix2 p k) = ix2 p k := by
  have hf := idx_facts t
  funext a; apply Fin.ext
  match a with
  | ⟨0, _⟩ => show win0_4.index t (0 : Fin 2) * 1 + 1 * p.val = p.val; omega
  | ⟨1, _⟩ => show win0_4.index t (1 : Fin 2) * 4096 + 1 * k.val = k.val; omega

/-! ## The input blocks entry by entry -/

theorem blk0 (c : Dev nD) (t : Fin cfg0.N) (p : Fin 128) (k : Fin 1024) :
    iblk m c 0 t (ix2 p k) = (m ((c : Thread nD τ).loc main_arg0)) (ix2 (row t p) k) := by
  show V m c main_arg0 (((cfg0.win 0).blk t).view.emb (ix2 p k)) = _
  rw [emb0, V_main_arg0]
theorem blk1 (c : Dev nD) (t : Fin cfg0.N) (p : Fin 128) (k : Fin 1024) :
    iblk m c 1 t (ix2 p k) = (m ((c : Thread nD τ).loc main_arg1)) (ix2 (row t p) k) := by
  show V m c main_arg1 (((cfg0.win 1).blk t).view.emb (ix2 p k)) = _
  rw [emb1, V_main_arg1]
theorem blk5 (c : Dev nD) (t : Fin cfg0.N) (p : Fin 128) (k : Fin 1024) :
    iblk m c 5 t (ix2 p k) = (m ((c : Thread nD τ).loc main_arg2)) (ix2 (row t p) k) := by
  show V m c main_arg2 (((cfg0.win 5).blk t).view.emb (ix2 p k)) = _
  rw [emb5, V_main_arg2]
theorem blk2 (c : Dev nD) (t : Fin cfg0.N) (j : Fin 4096) (k : Fin 1024) :
    iblk m c 2 t (ix2 j k) = Wx m c (ix2 j k) := by
  show V m c main_v1 (((cfg0.win 2).blk t).view.emb (ix2 j k)) = _
  rw [emb2, V_v1]; rfl
theorem blk3 (c : Dev nD) (t : Fin cfg0.N) (j : Fin 4096) (k : Fin 1024) :
    iblk m c 3 t (ix2 j k) = Uh m c (ix2 j k) := by
  show V m c main_v3 (((cfg0.win 3).blk t).view.emb (ix2 j k)) = _
  rw [emb3, V_v3]; rfl
theorem blk4 (c : Dev nD) (t : Fin cfg0.N) (j : Fin 4096) :
    iblk m c 4 t (ix2 0 j) = bx m c (ix1 j) + bh m c (ix1 j) := by
  show V m c main_v7 (((cfg0.win 4).blk t).view.emb (ix2 0 j)) = _
  rw [emb4, V_v7_apply]; rfl

/-! ## The block's pre-activation is the specification's -/

theorem pre_blocks (c : Dev nD) (t : Fin cfg0.N) (p : Fin 128) (j : Fin 4096) :
    pre (iblk m c 0 t) (iblk m c 1 t) (iblk m c 2 t) (iblk m c 3 t) (iblk m c 4 t) p j
      = gate (m ((c : Thread nD τ).loc main_arg0)) (m ((c : Thread nD τ).loc main_arg1)) (Wx m c) (Uh m c) (bx m c) (bh m c) (row t p) j := by
  rw [← gate_bias_first]
  unfold pre
  rw [blk4]
  refine congrArg₂ (· + ·) (congrArg₂ (· + ·) ?_ ?_) rfl
  · exact Finset.sum_congr rfl fun k _ => by rw [blk0, blk2]
  · exact Finset.sum_congr rfl fun k _ => by rw [blk1, blk3]

/-! ## What each point writes back is its block of the specification -/

theorem flushed6_eq (c : Dev nD) (t : Fin cfg0.N) :
    (dats m 0 c).flushed 6 t = ((cfg0.win 6).blk t).view.read (Elt Ideal) (hOut (m ((c : Thread nD τ).loc main_arg0)) (m ((c : Thread nD τ).loc main_arg1)) (m ((c : Thread nD τ).loc main_arg2)) (Wx m c) (Uh m c) (bx m c) (bh m c)) := by
  rw [flushed6]
  unfold out0_6
  rw [View.canon_unit_zero hz]
  simp only [View.ld_unit_zero (S := S128x1024) hz, View.ld_unit_zero (S := S4096x1024) hz, View.ld_unit_zero (S := S1x4096) hz]
  funext y
  obtain ⟨p, n, rfl⟩ : ∃ (p : Fin 128) (n : Fin 1024), y = ix2 p n := ⟨y 0, y 1, eq_ix2 y⟩
  show k0_pay3 (F := Ideal) (iblk m c 0 t) (iblk m c 2 t) (iblk m c 1 t) (iblk m c 3 t) (iblk m c 4 t) (iblk m c 5 t) (ix2 p n)
    = hOut (m ((c : Thread nD τ).loc main_arg0)) (m ((c : Thread nD τ).loc main_arg1)) (m ((c : Thread nD τ).loc main_arg2)) (Wx m c) (Uh m c) (bx m c) (bh m c) (((cfg0.win 6).blk t).view.emb (ix2 p n))
  rw [emb6, hOut_apply]
  refine (pay3_apply (iblk m c 0 t) (iblk m c 1 t) (iblk m c 5 t) (iblk m c 2 t) (iblk m c 3 t) (iblk m c 4 t) p n).trans ?_
  unfold hNew cNew
  rw [pre_blocks, pre_blocks, pre_blocks, pre_blocks, blk5]

theorem flushed7_eq (c : Dev nD) (t : Fin cfg0.N) :
    (dats m 0 c).flushed 7 t = ((cfg0.win 7).blk t).view.read (Elt Ideal) (cOut (m ((c : Thread nD τ).loc main_arg0)) (m ((c : Thread nD τ).loc main_arg1)) (m ((c : Thread nD τ).loc main_arg2)) (Wx m c) (Uh m c) (bx m c) (bh m c)) := by
  rw [flushed7]
  unfold out0_7
  rw [View.canon_unit_zero hz]
  simp only [View.ld_unit_zero (S := S128x1024) hz, View.ld_unit_zero (S := S4096x1024) hz, View.ld_unit_zero (S := S1x4096) hz]
  funext y
  obtain ⟨p, n, rfl⟩ : ∃ (p : Fin 128) (n : Fin 1024), y = ix2 p n := ⟨y 0, y 1, eq_ix2 y⟩
  show k0_pay2 (F := Ideal) (iblk m c 0 t) (iblk m c 2 t) (iblk m c 1 t) (iblk m c 3 t) (iblk m c 4 t) (iblk m c 5 t) (ix2 p n)
    = cOut (m ((c : Thread nD τ).loc main_arg0)) (m ((c : Thread nD τ).loc main_arg1)) (m ((c : Thread nD τ).loc main_arg2)) (Wx m c) (Uh m c) (bx m c) (bh m c) (((cfg0.win 7).blk t).view.emb (ix2 p n))
  rw [emb7, cOut_apply]
  refine (pay2_apply (iblk m c 0 t) (iblk m c 1 t) (iblk m c 5 t) (iblk m c 2 t) (iblk m c 3 t) (iblk m c 4 t) p n).trans ?_
  unfold cNew
  rw [pre_blocks, pre_blocks, pre_blocks, blk5]

/-! ## The result arrays, and the run -/

/-- The hidden-state result after the run is the specification's new hidden state of the arguments. -/
theorem final6 (c : Dev nD) : (dats m 0 c).arrAt 6 cfg0.N = hOut (m ((c : Thread nD τ).loc main_arg0)) (m ((c : Thread nD τ).loc main_arg1)) (m ((c : Thread nD τ).loc main_arg2)) (Wx m c) (Uh m c) (bx m c) (bh m c) :=
  (dats m 0 c).arrAt_eq_of_cover 6 _ (fun t _ => flushed6_eq m c t) cover6

/-- The cell-state result after the run is the specification's new cell state of the arguments. -/
theorem final7 (c : Dev nD) : (dats m 0 c).arrAt 7 cfg0.N = cOut (m ((c : Thread nD τ).loc main_arg0)) (m ((c : Thread nD τ).loc main_arg1)) (m ((c : Thread nD τ).loc main_arg2)) (Wx m c) (Uh m c) (bx m c) (bh m c) :=
  (dats m 0 c).arrAt_eq_of_cover 7 _ (fun t _ => flushed7_eq m c t) cover7

/-- Every weakly fair execution of the kernel program terminates with both results at the specification of the
    arguments and every argument as launched. -/
theorem run : θ_run defs (onTc (τ := τ) (main (F := Ideal))) ⟨m, fun _ => 0, ρ⟩ fun r => ∀ c : Dev nD,
      r.2.mem ((c : Thread nD τ).loc main_v8_0) = hOut (m ((c : Thread nD τ).loc main_arg0)) (m ((c : Thread nD τ).loc main_arg1)) (m ((c : Thread nD τ).loc main_arg2)) (Wx m c) (Uh m c) (bx m c) (bh m c)
      ∧ r.2.mem ((c : Thread nD τ).loc main_v8_1) = cOut (m ((c : Thread nD τ).loc main_arg0)) (m ((c : Thread nD τ).loc main_arg1)) (m ((c : Thread nD τ).loc main_arg2)) (Wx m c) (Uh m c) (bx m c) (bh m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨(h c).1.trans (final6 m c), (h c).2.1.trans (final7 m c), (h c).2.2⟩)
    (run_blocks m ρ)

end Cert.KernelIdeal.KValue

end
-- ==== Proof.RefGate.lean ====
/-
  The reference's pre-activation array, read at one entry, is the specification's `gate`.

  The reference transposes each stacked weight matrix, contracts the batch row with it, adds the two products and
  then adds each stacked bias broadcast along the batch axis: at entry `(b, j)` this is
  `((Σ_k x[b,k]·Wx[j,k]) + (Σ_k h[b,k]·Uh[j,k]) + bx[j]) + bh[j]`, term for term the specification's formula.
  The only work is to read the composed index maps of the layout operations at `(b, j)`.
-/
import proofs.«145393_j68848325755666_2_alg».proof.Proof.Gen.ReferenceIdeal.Read
import proofs.«145393_j68848325755666_2_alg».proof.Proof.LstmSpec

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.LstmSpec

/-- The left operand's index of the first contraction at entry `(b, j)`, term `k`, is `(b, k)`. -/
theorem lidx5 (b j : Fin 4096) (k : Fin 1024) : Read.lidx_main_v5 (ix2 b j) k = ix2 b k :=
  funext fun a => Fin.ext (by match a with | ⟨0, _⟩ => rfl | ⟨1, _⟩ => rfl)

/-- The transposed weight read at the right operand's index is the stacked weight at `(j, k)`. -/
theorem ridx5 (b j : Fin 4096) (k : Fin 1024) : Read.idx_main_v4 (Read.ridx_main_v5 (ix2 b j) k) = ix2 j k :=
  funext fun a => Fin.ext (by match a with | ⟨0, _⟩ => rfl | ⟨1, _⟩ => rfl)

/-- The same two facts for the second contraction. -/
theorem lidx7 (b j : Fin 4096) (k : Fin 1024) : Read.lidx_main_v7 (ix2 b j) k = ix2 b k :=
  funext fun a => Fin.ext (by match a with | ⟨0, _⟩ => rfl | ⟨1, _⟩ => rfl)

theorem ridx7 (b j : Fin 4096) (k : Fin 1024) : Read.idx_main_v6 (Read.ridx_main_v7 (ix2 b j) k) = ix2 j k :=
  funext fun a => Fin.ext (by match a with | ⟨0, _⟩ => rfl | ⟨1, _⟩ => rfl)

/-- A bias broadcast along the batch axis reads the bias at the column. -/
theorem bidx9 (b j : Fin 4096) : Read.idx_main_v9 (Read.idx_main_v10 (ix2 b j)) = ix1 j :=
  funext fun a => Fin.ext (by match a with | ⟨0, _⟩ => rfl)

theorem bidx12 (b j : Fin 4096) : Read.idx_main_v12 (Read.idx_main_v13 (ix2 b j)) = ix1 j :=
  funext fun a => Fin.ext (by match a with | ⟨0, _⟩ => rfl)

variable (x0 x1 : (⟨S4096x1024, .f32⟩ : BufTy).Contents (Elt Ideal))
  (x3 x5 x7 x9 x11 x13 x15 x17 : (⟨S1024x1024, .f32⟩ : BufTy).Contents (Elt Ideal))
  (x4 x6 x8 x10 x12 x14 x16 x18 : (⟨S1024, .f32⟩ : BufTy).Contents (Elt Ideal))

/-- The reference's pre-activation at entry `(b, j)` is the specification's `gate` of the stacked arrays. -/
theorem ref_gate (b j : Fin 4096) :
    Read.val_main_v14 (F := Ideal) x0 x1 x3 x4 x5 x6 x7 x8 x9 x10 x11 x12 x13 x14 x15 x16 x17 x18 (ix2 b j)
      = gate x0 x1 (Read.val_main_v0 (F := Ideal) x3 x5 x7 x9) (Read.val_main_v1 (F := Ideal) x11 x13 x15 x17)
          (Read.val_main_v2 (F := Ideal) x4 x6 x8 x10) (Read.val_main_v3 (F := Ideal) x12 x14 x16 x18) b j := by
  rw [Read.val_main_v14_apply, Read.val_main_v11_apply, Read.val_main_v8_apply, Read.val_main_v5_apply,
    Read.val_main_v7_apply, Read.val_main_v10_apply, Read.val_main_v9_apply, Read.val_main_v13_apply,
    Read.val_main_v12_apply, bidx9, bidx12]
  unfold gate
  simp only [Ideal.addf_def]
  refine congrArg₂ (· + ·) (congrArg₂ (· + ·) (congrArg₂ (· + ·)
    (Finset.sum_congr rfl fun k _ => ?_) (Finset.sum_congr rfl fun k _ => ?_)) rfl) rfl
  · rw [Read.val_main_v4_apply, lidx5, ridx5]
  · rw [Read.val_main_v6_apply, lidx7, ridx7]

end Cert.ReferenceIdeal.RefValue

end
-- ==== Proof.RefSide.lean ====
/-
  The reference program's two results are the specification's new cell state and new hidden state.

  Each of the four column blocks of the pre-activation array is a slice at a fixed offset `1024·g`, so its entry
  `(b, n)` is the pre-activation at stacked column `1024·g + n`. The reference spells the logistic function as
  `1 / (1 + exp(−z))` with the constant one given by its bit pattern; that pattern is the extended real one, and
  the quotient is the specification's logistic function by definition. The products and the sum are the
  specification's, in the same order.
-/
import proofs.«145393_j68848325755666_2_alg».proof.Proof.RefGate
import Idealize.ShloMosaic.Lib.IdealHost

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.LstmSpec

/-- Entry `(b, n)` of the slice at column offset `0` is entry `(b, 1024·0 + n)`. -/
theorem sidx15 (b : Fin 4096) (n : Fin 1024) : Read.idx_main_v15 (ix2 b n) = ix2 b (col 0 (by omega) n) :=
  funext fun a => Fin.ext (by
    match a with
    | ⟨0, _⟩ => rfl
    | ⟨1, _⟩ => show n.val = 1024 * 0 + n.val; omega)

/-- Entry `(b, n)` of the slice at column offset `1024` is entry `(b, 1024·1 + n)`. -/
theorem sidx22 (b : Fin 4096) (n : Fin 1024) : Read.idx_main_v22 (ix2 b n) = ix2 b (col 1 (by omega) n) :=
  funext fun a => Fin.ext (by
    match a with
    | ⟨0, _⟩ => rfl
    | ⟨1, _⟩ => show 1024 + n.val = 1024 * 1 + n.val; omega)

/-- Entry `(b, n)` of the slice at column offset `2048` is entry `(b, 1024·2 + n)`. -/
theorem sidx29 (b : Fin 4096) (n : Fin 1024) : Read.idx_main_v29 (ix2 b n) = ix2 b (col 2 (by omega) n) :=
  funext fun a => Fin.ext (by
    match a with
    | ⟨0, _⟩ => rfl
    | ⟨1, _⟩ => show 2048 + n.val = 1024 * 2 + n.val; omega)

/-- Entry `(b, n)` of the slice at column offset `3072` is entry `(b, 1024·3 + n)`. -/
theorem sidx31 (b : Fin 4096) (n : Fin 1024) : Read.idx_main_v31 (ix2 b n) = ix2 b (col 3 (by omega) n) :=
  funext fun a => Fin.ext (by
    match a with
    | ⟨0, _⟩ => rfl
    | ⟨1, _⟩ => show 3072 + n.val = 1024 * 3 + n.val; omega)

/-- The reference's spelling of the logistic function, with the constant one as the bit pattern of `1.0`. -/
theorem logistic_spelt (z : EReal) :
    Ideal.div (Ideal.ofBits .f32 0x3F800000#32) (Ideal.ofBits .f32 0x3F800000#32 + Ideal.exp (-z)) = Ideal.logistic z := by
  rw [Ideal.ofBits_one_f32]; rfl

variable (x0 x1 x2 : (⟨S4096x1024, .f32⟩ : BufTy).Contents (Elt Ideal))
  (x3 x5 x7 x9 x11 x13 x15 x17 : (⟨S1024x1024, .f32⟩ : BufTy).Contents (Elt Ideal))
  (x4 x6 x8 x10 x12 x14 x16 x18 : (⟨S1024, .f32⟩ : BufTy).Contents (Elt Ideal))

/-- The input gate: the logistic function of column block 0. -/
theorem ref_i (b : Fin 4096) (n : Fin 1024) :
    Read.val_main_v21 (F := Ideal) x0 x1 x3 x4 x5 x6 x7 x8 x9 x10 x11 x12 x13 x14 x15 x16 x17 x18 (ix2 b n)
      = Ideal.logistic (gate x0 x1 (Read.val_main_v0 (F := Ideal) x3 x5 x7 x9) (Read.val_main_v1 (F := Ideal) x11 x13 x15 x17)
          (Read.val_main_v2 (F := Ideal) x4 x6 x8 x10) (Read.val_main_v3 (F := Ideal) x12 x14 x16 x18) b (col 0 (by omega) n)) := by
  rw [Read.val_main_v21_apply, Read.val_main_v20_apply, Read.val_main_cst_0_apply, Read.val_main_v19_apply,
    Read.val_main_v18_apply, Read.val_main_cst_apply, Read.val_main_v17_apply, Read.val_main_v16_apply,
    Read.val_main_v15_apply, sidx15, ref_gate]
  exact logistic_spelt _

/-- The forget gate: the logistic function of column block 1. -/
theorem ref_f (b : Fin 4096) (n : Fin 1024) :
    Read.val_main_v28 (F := Ideal) x0 x1 x3 x4 x5 x6 x7 x8 x9 x10 x11 x12 x13 x14 x15 x16 x17 x18 (ix2 b n)
      = Ideal.logistic (gate x0 x1 (Read.val_main_v0 (F := Ideal) x3 x5 x7 x9) (Read.val_main_v1 (F := Ideal) x11 x13 x15 x17)
          (Read.val_main_v2 (F := Ideal) x4 x6 x8 x10) (Read.val_main_v3 (F := Ideal) x12 x14 x16 x18) b (col 1 (by omega) n)) := by
  rw [Read.val_main_v28_apply, Read.val_main_v27_apply, Read.val_main_cst_2_apply, Read.val_main_v26_apply,
    Read.val_main_v25_apply, Read.val_main_cst_1_apply, Read.val_main_v24_apply, Read.val_main_v23_apply,
    Read.val_main_v22_apply, sidx22, ref_gate]
  exact logistic_spelt _

/-- The candidate: the hyperbolic tangent of column block 2. -/
theorem ref_g (b : Fin 4096) (n : Fin 1024) :
    Read.val_main_v30 (F := Ideal) x0 x1 x3 x4 x5 x6 x7 x8 x9 x10 x11 x12 x13 x14 x15 x16 x17 x18 (ix2 b n)
      = Ideal.tanh (gate x0 x1 (Read.val_main_v0 (F := Ideal) x3 x5 x7 x9) (Read.val_main_v1 (F := Ideal) x11 x13 x15 x17)
          (Read.val_main_v2 (F := Ideal) x4 x6 x8 x10) (Read.val_main_v3 (F := Ideal) x12 x14 x16 x18) b (col 2 (by omega) n)) := by
  rw [Read.val_main_v30_apply, Read.val_main_v29_apply, sidx29, ref_gate]
  rfl

/-- The output gate: the logistic function of column block 3. -/
theorem ref_o (b : Fin 4096) (n : Fin 1024) :
    Read.val_main_v37 (F := Ideal) x0 x1 x3 x4 x5 x6 x7 x8 x9 x10 x11 x12 x13 x14 x15 x16 x17 x18 (ix2 b n)
      = Ideal.logistic (gate x0 x1 (Read.val_main_v0 (F := Ideal) x3 x5 x7 x9) (Read.val_main_v1 (F := Ideal) x11 x13 x15 x17)
          (Read.val_main_v2 (F := Ideal) x4 x6 x8 x10) (Read.val_main_v3 (F := Ideal) x12 x14 x16 x18) b (col 3 (by omega) n)) := by
  rw [Read.val_main_v37_apply, Read.val_main_v36_apply, Read.val_main_cst_4_apply, Read.val_main_v35_apply,
    Read.val_main_v34_apply, Read.val_main_cst_3_apply, Read.val_main_v33_apply, Read.val_main_v32_apply,
    Read.val_main_v31_apply, sidx31, ref_gate]
  exact logistic_spelt _

/-- The reference's new cell state at entry `(b, n)`. -/
theorem ref_c_apply (b : Fin 4096) (n : Fin 1024) :
    Read.val_main_v40 (F := Ideal) x0 x1 x2 x3 x4 x5 x6 x7 x8 x9 x10 x11 x12 x13 x14 x15 x16 x17 x18 (ix2 b n)
      = cNew x0 x1 x2 (Read.val_main_v0 (F := Ideal) x3 x5 x7 x9) (Read.val_main_v1 (F := Ideal) x11 x13 x15 x17)
          (Read.val_main_v2 (F := Ideal) x4 x6 x8 x10) (Read.val_main_v3 (F := Ideal) x12 x14 x16 x18) b n := by
  rw [Read.val_main_v40_apply, Read.val_main_v38_apply, Read.val_main_v39_apply, ref_f, ref_i, ref_g]
  rfl

/-- The reference's new cell state is the specification's. -/
theorem ref_c :
    Read.val_main_v40 (F := Ideal) x0 x1 x2 x3 x4 x5 x6 x7 x8 x9 x10 x11 x12 x13 x14 x15 x16 x17 x18
      = cOut x0 x1 x2 (Read.val_main_v0 (F := Ideal) x3 x5 x7 x9) (Read.val_main_v1 (F := Ideal) x11 x13 x15 x17)
          (Read.val_main_v2 (F := Ideal) x4 x6 x8 x10) (Read.val_main_v3 (F := Ideal) x12 x14 x16 x18) := by
  funext i
  obtain ⟨b, n, rfl⟩ : ∃ (b : Fin 4096) (n : Fin 1024), i = ix2 b n := ⟨i 0, i 1, eq_ix2 i⟩
  rw [cOut_apply]
  exact ref_c_apply _ _ _ _ _ _ _ _ _ _ _ _ _ _ _ _ _ _ _ b n

/-- The reference's new hidden state is the specification's. -/
theorem ref_h :
    Read.val_main_v42 (F := Ideal) x0 x1 x2 x3 x4 x5 x6 x7 x8 x9 x10 x11 x12 x13 x14 x15 x16 x17 x18
      = hOut x0 x1 x2 (Read.val_main_v0 (F := Ideal) x3 x5 x7 x9) (Read.val_main_v1 (F := Ideal) x11 x13 x15 x17)
          (Read.val_main_v2 (F := Ideal) x4 x6 x8 x10) (Read.val_main_v3 (F := Ideal) x12 x14 x16 x18) := by
  funext i
  obtain ⟨b, n, rfl⟩ : ∃ (b : Fin 4096) (n : Fin 1024), i = ix2 b n := ⟨i 0, i 1, eq_ix2 i⟩
  rw [hOut_apply, Read.val_main_v42_apply, Read.val_main_v41_apply, ref_o, ref_c_apply]
  rfl

end Cert.ReferenceIdeal.RefValue

end
-- ==== Proof.lean ====
/-
  One step of an LSTM cell, a tiled kernel against a plain array program, equal on the extended reals.

  Both programs stack the four gates' weight matrices into Wx, Uh : [4096, 1024] and the four gates' biases into
  bx, bh : [4096], form the pre-activations x·Wxᵀ + h·Uhᵀ + bias over a batch of 4096 rows, and from their four
  column blocks of width 1024 the new cell state c' = σ(f)·c + σ(i)·tanh(g) and the new hidden state
  h' = σ(o)·tanh(c'). The kernel handles 128 batch rows per grid point against the whole of both weight matrices,
  adds the two biases to each other before adding them to the products, and writes each result block back; the
  reference works on whole arrays and adds the biases one after the other. On the extended reals a change of float
  format is the identity, the logistic function is 1/(1 + e^(−x)) in either spelling, a product accumulated into zero
  is the plain sum, and addition is associative with no finiteness assumption: so the two results agree entry by
  entry, and the precondition is never opened.

  The three frame statements: each kernel program runs its eight host operations, then the 32 grid points, every load
  and store of the body inside a whole staging buffer, and no argument array is ever written; the reference is a
  straight line of host operations that writes no argument. The idealized kernel is the kernel's own text read on the
  extended reals (no operation was rewritten), so there is nothing to preserve beyond that.
-/
import proofs.«145393_j68848325755666_2_alg».proof.Defs
import proofs.«145393_j68848325755666_2_alg».proof.Proof.Gen.Kernel
import proofs.«145393_j68848325755666_2_alg».proof.Proof.Gen.KernelIdeal
import proofs.«145393_j68848325755666_2_alg».proof.Proof.Gen.ReferenceIdeal
import proofs.«145393_j68848325755666_2_alg».proof.Proof.Gen.Pre_finite_inputs
import proofs.«145393_j68848325755666_2_alg».proof.Proof.Gen.ReferenceIdeal.Read
import proofs.«145393_j68848325755666_2_alg».proof.Proof.KBodyBits
import proofs.«145393_j68848325755666_2_alg».proof.Proof.KValue
import proofs.«145393_j68848325755666_2_alg».proof.Proof.RefSide
import Idealize.ShloMosaic.Adequacy
import Idealize.ShloMosaic.Init

noncomputable section

namespace Cert.Proof

open Idealize.ShloMosaic Idealize.ShloMosaic.TcCoe Idealize.SL.Sem

/-- The kernel as compiled runs to the end and leaves its arguments as launched. -/
theorem frame_k : Cert.frame_Kernel := fun m ρ _ => Cert.Kernel.Frame.frame m ρ

/-- So does its reading on the extended reals. -/
theorem frame_ki : Cert.frame_KernelIdeal := fun m ρ _ => Cert.KernelIdeal.Frame.frame m ρ

/-- The reference's run ends with both results computed and every argument unchanged; the frame keeps the latter. -/
theorem frame_ri : Cert.frame_ReferenceIdeal := fun m ρ _ =>
  (θ_run Cert.ReferenceIdeal.defs _ _).mono (fun _ h c => (h c).2.2) (Cert.ReferenceIdeal.Value.run (F := Ideal) m ρ)

/-- No operation was rewritten when the kernel was read on the extended reals. -/
theorem preserves : Cert.preserves_Kernel_KernelIdeal := trivial

/-- From memories that agree on the nineteen arguments both programs end with the new hidden state and the new cell
    state at the one function of the arguments, entry by entry. -/
theorem algebraic : Cert.algebraic_KernelIdeal_ReferenceIdeal := by
  intro m ρ m' ρ' _ hagree
  refine ⟨_, _, Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v42_eq, Cert.ReferenceIdeal.RefValue.ref_h]
    obtain ⟨a0, a1, a2, a3, a4, a5, a6, a7, a8, a9, a10, a11, a12, a13, a14, a15, a16, a17, a18⟩ := hagree c
    rw [a0, a1, a2, a3, a4, a5, a6, a7, a8, a9, a10, a11, a12, a13, a14, a15, a16, a17, a18]
    rfl
  · rw [Cert.ReferenceIdeal.Read.val_main_v40_eq, Cert.ReferenceIdeal.RefValue.ref_c]
    obtain ⟨a0, a1, a2, a3, a4, a5, a6, a7, a8, a9, a10, a11, a12, a13, a14, a15, a16, a17, a18⟩ := hagree c
    rw [a0, a1, a2, a3, a4, a5, a6, a7, a8, a9, a10, a11, a12, a13, a14, a15, a16, a17, a18]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
